-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x2048 : Shape := ⟨2, ![32768, 2048]⟩
abbrev S2048x512 : Shape := ⟨2, ![2048, 512]⟩
abbrev S2048 : Shape := ⟨1, ![2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S32768x512 .f32) (main_arg1 : FVec F S32768x2048 .f32) (main_arg2 : FVec F S2048x512 .f32) (main_arg3 : FVec F S2048 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S32768x512 : Shape := ⟨2, ![32768, 512]⟩
abbrev S32768x2048 : Shape := ⟨2, ![32768, 2048]⟩
abbrev S2048x512 : Shape := ⟨2, ![2048, 512]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x2048, .f32⟩
  | .hbm, ⟨2, _⟩ => ⟨S2048x512, .f32⟩
  | .hbm, ⟨3, _⟩ => ⟨S2048, .f32⟩
  | .hbm, ⟨4, _⟩ => ⟨S2048x512, .bf16⟩
  | .hbm, ⟨5, _⟩ => ⟨S1x2048, .f32⟩
  | .hbm, ⟨6, _⟩ => ⟨S32768x2048, .f32⟩
  | .local _ .vmem, ⟨0, _⟩ => ⟨S512x512, .f32⟩
  | .local _ .vmem, ⟨1, _⟩ => ⟨S512x512, .f32⟩
  | .local _ .vmem, ⟨2, _⟩ => ⟨S2048x512, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S32768x2048.size a
  hwx0_4 : ∀ i : grid0.Coords, EltTy.bits .f32 = 32 ∨ (Rect.block (s := S32768x2048) S512x2048.size (cc0_transform_4 i) (hinb0_4 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x2048 : Shape := ⟨2, ![32768, 2048]⟩
abbrev S2048x512 : Shape := ⟨2, ![2048, 512]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 33
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x2048, .f32⟩
  | .hbm, ⟨2, _⟩ => ⟨S2048x512, .f32⟩
  | .hbm, ⟨3, _⟩ => ⟨S2048, .f32⟩
  | .hbm, ⟨4, _⟩ => ⟨S32768x2048, .f32⟩
  | .hbm, ⟨5, _⟩ => ⟨S1x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  dot_S32768x512_S2048x512_S32768x2048_1_1_0_0_n_n_wf : DotDims.WF S32768x512 S2048x512 S32768x2048 [1] [1] [0] [0] [] []

variable [Facts₀]

def dot_S32768x512_S2048x512_S32768x2048_1_1_0_0_n_n : DotDims S32768x512 S2048x512 S32768x2048 where
  lhsContracting := [1]
  rhsContracting := [1]
  lhsNonContracting := [0]
  rhsNonContracting := [0]
  lhsBatch := []
  rhsBatch := []
  wf := dot_S32768x512_S2048x512_S32768x2048_1_1_0_0_n_n_wf

class Facts : Prop extends Facts₀ where

variable [Facts]
-- ==== Proof.RowNorm.lean ====
/-
  Normalising one row of numbers, in two spellings, on the extended reals.

  For a row z of C entries and a length n, the row's mean is (∑ z) / n, the centred row is d = z − mean, and the
  (biased) variance is (∑ d²) / n. With an offset ε and a second row y of the same length, the two spellings of
  "standardise, add y, multiply by y" are

      (d · rsqrt (var + ε) + y) · y        and        (d / sqrt (var + ε) + y) · y .

  They are the same function of (z, y) whenever n is a positive real and ε a positive real, with NO assumption on the
  entries of z and y: a square d · d is never negative on the extended reals (⊥ · ⊥ = ⊤), a sum of such squares is not
  negative, nor is its quotient by a positive real, so var + ε is positive — a positive real or ⊤. At a positive real
  t the reciprocal root is (√t)⁻¹ and √t is not zero, so multiplying by the one is dividing by the other; at ⊤ the
  reciprocal root is 0 and the quotient by √⊤ = ⊤ is the product with ⊤⁻¹ = 0.
-/
import Idealize.ShloMosaic.PureOps.Ideal

noncomputable section

open scoped BigOperators

namespace Cert.RowNorm

open Idealize.ShloMosaic

/-- Multiplying by the reciprocal square root of a positive extended real is dividing by its square root. -/
theorem mul_rsqrt_eq_div_sqrt {t : EReal} (ht : 0 < t) (d : EReal) : d * Ideal.rsqrt t = Ideal.div d (Ideal.sqrt t) := by
  induction t using EReal.rec with
  | bot => exact absurd ht (not_lt.mpr bot_le)
  | top =>
    rw [Ideal.rsqrt_top, Ideal.sqrt_top, Ideal.div, if_neg EReal.top_ne_zero, EReal.inv_top]
  | coe r =>
    have hr : 0 < r := EReal.coe_pos.mp ht
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hs, one_div]

/-- A square is not negative on the extended reals, at the infinities too. -/
theorem mul_self_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.mpr (_root_.mul_self_nonneg r)

/-- The quotient of a non-negative extended real by a positive real is not negative. -/
theorem div_nonneg_of_pos {x : EReal} (hx : 0 ≤ x) {N : ℝ} (hN : 0 < N) : 0 ≤ Ideal.div x (N : EReal) := by
  rw [Ideal.div_coe hN.ne']
  exact mul_nonneg hx (EReal.coe_nonneg.mpr (one_div_pos.mpr hN).le)

variable {C : ℕ}

/-- The mean of a row: its sum over its length. -/
def mean (n : EReal) (z : Fin C → EReal) : EReal := Ideal.div (∑ q, z q) n

/-- The row with its mean taken off every entry. -/
def centred (n : EReal) (z : Fin C → EReal) (q : Fin C) : EReal := z q - mean n z

/-- The biased variance of a row: the mean of the squares of the centred row. -/
def variance (n : EReal) (z : Fin C → EReal) : EReal := Ideal.div (∑ q, centred n z q * centred n z q) n

/-- Standardise with the reciprocal root, add `y`, multiply by `y`. -/
def byRsqrt (n ε : EReal) (z y : Fin C → EReal) (q : Fin C) : EReal :=
  (centred n z q * Ideal.rsqrt (variance n z + ε) + y q) * y q

/-- Standardise by dividing by the root, add `y`, multiply by `y`. -/
def byDivSqrt (n ε : EReal) (z y : Fin C → EReal) (q : Fin C) : EReal :=
  (Ideal.div (centred n z q) (Ideal.sqrt (variance n z + ε)) + y q) * y q

/-- The variance over a positive real length is not negative, whatever the row holds. -/
theorem variance_nonneg {N : ℝ} (hN : 0 < N) (z : Fin C → EReal) : 0 ≤ variance (N : EReal) z :=
  div_nonneg_of_pos (Finset.sum_nonneg fun q _ => mul_self_nonneg _) hN

/-- The two spellings are one function, for a positive real length and a positive offset. -/
theorem byRsqrt_eq_byDivSqrt {N : ℝ} (hN : 0 < N) {ε : EReal} (hε : 0 < ε) (z y : Fin C → EReal) (q : Fin C) :
    byRsqrt (N : EReal) ε z y q = byDivSqrt (N : EReal) ε z y q := by
  unfold byRsqrt byDivSqrt
  rw [mul_rsqrt_eq_div_sqrt (lt_of_lt_of_le hε (le_add_of_nonneg_left (variance_nonneg hN z)))]

end Cert.RowNorm

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibRowNormBlock.lean ====
/-
  A BLOCK OF ROWS STANDARDISED ROW BY ROW, IN THE DEVICE'S SPELLING, READ AT AN INDEX.

  On an [R, C] block the device takes a row's sum by a reduction over the column axis, keeps it as an [R, 1] column
  (a recast of the [R] vector of sums), divides the column by the splat of a length word, and broadcasts it back over
  the C columns. From that "mean column" it forms the centred block d = z − mean, the mean column of d · d (the
  variance), the reciprocal root of variance + offset, and finally (d · inv + y) · y against a second block y.

  Read at (p, q) each stage is the corresponding scalar formula of row p alone (Proof/RowNorm.lean): the mean column
  at (p, ·) is the mean of row p, and the last stage is `RowNorm.byRsqrt` of rows p of z and y, at column q. Generic
  in the extents R, C and in the two words (the length and the offset); every shape fact the operations ask for is a
  parameter.
-/
import Idealize.ShloMosaic.Lib.ValueIdx
import Idealize.ShloMosaic.Lib.Pipeline.Value
import Idealize.ShloMosaic.PureOps.Ideal.Laws
import proofs.«181332_j3556232921779_2_alg».proof.Proof.RowNorm
import proofs.«181332_j3556232921779_2_alg».proof.Proof.LibColumnCast
import proofs.«181332_j3556232921779_2_alg».proof.Proof.LibMatOps

noncomputable section

open scoped BigOperators

namespace Cert.RowNormBlock

open Idealize.ShloMosaic Idealize.ShloMosaic.ValueIdx

variable {R C : ℕ}

/-- A sum over the column axis of an [R, C] block, at row p, is the sum of the row's C entries. -/
theorem rowSum_apply (v : FVec Ideal ⟨2, ![R, C]⟩ .f32) (acc : BitVec 32)
    (h : (⟨2, ![R, C]⟩ : Shape).Reduces [1] ⟨1, ![R]⟩) (hφ : FKind.Formats .f32) (hacc : acc = FKind.add.neutral .f32 hφ)
    (p : Fin R) :
    multiReduction .add [1] ⟨1, ![R]⟩ v acc h hφ hacc (ix1 p) = ∑ k : Fin C, v (ix2 p k) := by
  refine (Ideal.multiReduction_add_single v acc h hφ hacc (ix1 p)).trans ?_
  refine Finset.sum_congr rfl fun k _ => congrArg v (funext fun a => Fin.ext ?_)
  match a with
  | ⟨0, _⟩ => rfl
  | ⟨1, _⟩ => rfl

/-- The facts the device's operations ask of the shapes [R, C], [R], [R, 1]. -/
structure Shapes (R C : ℕ) : Prop where
  reduces : (⟨2, ![R, C]⟩ : Shape).Reduces [1] ⟨1, ![R]⟩
  casts : (⟨1, ![R]⟩ : Shape).ShapeCasts ⟨2, ![R, 1]⟩
  broadcasts : (⟨2, ![R, 1]⟩ : Shape).Broadcasts ⟨2, ![R, C]⟩

variable (S : Shapes R C) (hφ : FKind.Formats .f32) (hacc : (0x00000000#32 : BitVec 32) = FKind.add.neutral .f32 hφ)

/-- The mean column: row sums kept as a column, divided by the splat of the length word `n`. -/
def meanColumn (n : BitVec 32) (v : FVec Ideal ⟨2, ![R, C]⟩ .f32) : FVec Ideal ⟨2, ![R, 1]⟩ .f32 :=
  divf (shapeCast ⟨2, ![R, 1]⟩ (multiReduction .add [1] ⟨1, ![R]⟩ v 0x00000000#32 S.reduces hφ hacc) S.casts)
    (broadcast ⟨2, ![R, 1]⟩ (Scalar.ofBits .f32 n))

/-- The mean column at (p, ·) is the mean of row p. -/
theorem meanColumn_apply (n : BitVec 32) (v : FVec Ideal ⟨2, ![R, C]⟩ .f32) (p : Fin R) (u : Fin 1) :
    meanColumn S hφ hacc n v (ix2 p u) = RowNorm.mean (Ideal.ofBits .f32 n) (fun k => v (ix2 p k)) := by
  unfold meanColumn RowNorm.mean
  show Ideal.div (shapeCast ⟨2, ![R, 1]⟩ (multiReduction .add [1] ⟨1, ![R]⟩ v 0x00000000#32 S.reduces hφ hacc) S.casts (ix2 p u))
    (Ideal.ofBits .f32 n) = _
  rw [LibColumnCast.column_cast, rowSum_apply]

/-- The block with each row's mean taken off. -/
def centredBlock (n : BitVec 32) (z : FVec Ideal ⟨2, ![R, C]⟩ .f32) : FVec Ideal ⟨2, ![R, C]⟩ .f32 :=
  subf z (broadcastTo ⟨2, ![R, C]⟩ (meanColumn S hφ hacc n z) S.broadcasts)

/-- The centred block at (p, q) is row p's centred entry q. -/
theorem centredBlock_apply (n : BitVec 32) (z : FVec Ideal ⟨2, ![R, C]⟩ .f32) (p : Fin R) (q : Fin C) :
    centredBlock S hφ hacc n z (ix2 p q) = RowNorm.centred (Ideal.ofBits .f32 n) (fun k => z (ix2 p k)) q := by
  unfold centredBlock RowNorm.centred
  show z (ix2 p q) - broadcastTo ⟨2, ![R, C]⟩ (meanColumn S hφ hacc n z) S.broadcasts (ix2 p q) = _
  rw [MatOps.broadcastTo_a1_ab_apply, meanColumn_apply]

/-- Standardise each row with the reciprocal root of (variance + offset word `e`), add `y`, multiply by `y`. -/
def normAddMul (n e : BitVec 32) (z y : FVec Ideal ⟨2, ![R, C]⟩ .f32) : FVec Ideal ⟨2, ![R, C]⟩ .f32 :=
  mulf (addf (mulf (centredBlock S hφ hacc n z)
      (broadcastTo ⟨2, ![R, C]⟩
        (rsqrt (addf (meanColumn S hφ hacc n (mulf (centredBlock S hφ hacc n z) (centredBlock S hφ hacc n z)))
          (broadcast ⟨2, ![R, 1]⟩ (Scalar.ofBits .f32 e)))) S.broadcasts)) y) y

/-- At (p, q) it is the scalar formula of rows p of `z` and `y`, at column q. -/
theorem normAddMul_apply (n e : BitVec 32) (z y : FVec Ideal ⟨2, ![R, C]⟩ .f32) (p : Fin R) (q : Fin C) :
    normAddMul S hφ hacc n e z y (ix2 p q)
      = RowNorm.byRsqrt (Ideal.ofBits .f32 n) (Ideal.ofBits .f32 e) (fun k => z (ix2 p k)) (fun k => y (ix2 p k)) q := by
  unfold normAddMul RowNorm.byRsqrt RowNorm.variance
  show (centredBlock S hφ hacc n z (ix2 p q)
      * broadcastTo ⟨2, ![R, C]⟩
        (rsqrt (addf (meanColumn S hφ hacc n (mulf (centredBlock S hφ hacc n z) (centredBlock S hφ hacc n z)))
          (broadcast ⟨2, ![R, 1]⟩ (Scalar.ofBits .f32 e)))) S.broadcasts (ix2 p q) + y (ix2 p q)) * y (ix2 p q) = _
  rw [MatOps.broadcastTo_a1_ab_apply, centredBlock_apply]
  show (_ * Ideal.rsqrt (meanColumn S hφ hacc n (mulf (centredBlock S hφ hacc n z) (centredBlock S hφ hacc n z)) (ix2 p (0 : Fin 1))
      + Ideal.ofBits .f32 e) + _) * _ = _
  rw [meanColumn_apply]
  unfold RowNorm.mean
  have hsq : (fun k => mulf (centredBlock S hφ hacc n z) (centredBlock S hφ hacc n z) (ix2 p k))
      = fun k => RowNorm.centred (Ideal.ofBits .f32 n) (fun k => z (ix2 p k)) k * RowNorm.centred (Ideal.ofBits .f32 n) (fun k => z (ix2 p k)) k :=
    funext fun k => by
      show centredBlock S hφ hacc n z (ix2 p k) * centredBlock S hφ hacc n z (ix2 p k) = _
      rw [centredBlock_apply]
  rw [hsq]

end Cert.RowNormBlock

end
-- ==== Proof.LibRowsByRows.lean ====
/-
  A matrix product in which BOTH operands are contracted along their second axis: the [M, K] operand's row p against
  the [C, K] operand's row q, that is  A · Bᵀ. Read at the extended reals, into an accumulator of zeros, the element
  (p, q) of the result is the plain sum  ∑ k, A (p, k) * B (q, k).

  The lemma is stated for any dimension record of those shapes whose operand indices are the expected ones — four
  facts about the record (`hl0 … hr1`) that a program's literal record proves by unfolding; nothing else of the record
  is used. The one contracted axis is re-indexed by its coordinate `k : Fin K`.
-/
import Idealize.ShloMosaic.Lib.ValueIdx
import Idealize.ShloMosaic.PureOps.Ideal.Laws

noncomputable section

open scoped BigOperators

namespace RowsByRows

open Idealize.ShloMosaic Idealize.ShloMosaic.ValueIdx

/-- Element (p, q) of  A · Bᵀ  accumulated into zeros is  ∑ k, A (p, k) * B (q, k). -/
theorem matmul_zero_apply {M K C : Nat} {φ₁ φ₂ : FTy} (D : DotDims ⟨2, ![M, K]⟩ ⟨2, ![C, K]⟩ ⟨2, ![M, C]⟩)
    (hr : D.contr.rank = 1) (hs : D.contr.size ⟨0, by omega⟩ = K)
    (hl0 : ∀ (j : (⟨2, ![M, C]⟩ : Shape).Idx) (k : D.contr.Idx), (D.lhsIdx j k 0).val = (j 0).val)
    (hl1 : ∀ (j : (⟨2, ![M, C]⟩ : Shape).Idx) (k : D.contr.Idx), (D.lhsIdx j k 1).val = (k ⟨0, by omega⟩).val)
    (hr0 : ∀ (j : (⟨2, ![M, C]⟩ : Shape).Idx) (k : D.contr.Idx), (D.rhsIdx j k 0).val = (j 1).val)
    (hr1 : ∀ (j : (⟨2, ![M, C]⟩ : Shape).Idx) (k : D.contr.Idx), (D.rhsIdx j k 1).val = (k ⟨0, by omega⟩).val)
    (prec : Option ContractPrecision) (A : FVec Ideal ⟨2, ![M, K]⟩ φ₁) (B : FVec Ideal ⟨2, ![C, K]⟩ φ₂)
    (p : Fin M) (q : Fin C) :
    FloatOps.matmul D prec A B (constant ⟨2, ![M, C]⟩ .f32 0x00000000#32) (ix2 p q) = ∑ k : Fin K, A (ix2 p k) * B (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end RowsByRows

end
-- ==== Proof.KernelBlock.lean ====
/-
  WHAT THE KERNEL'S BODY COMPUTES ON ONE BLOCK OF 512 ROWS, ENTRY BY ENTRY.

  The body loads a [512, 512] block of x, the whole [2048, 512] weight array (already rounded to bf16), the bias as
  one [1, 2048] row and a [512, 2048] block of y. It forms  z = x-block · Wᵀ + bias  (a matrix product contracting
  the second axis of both operands, into zeros, after a rounding of the x-block that is the identity on the extended
  reals) and then standardises every row of z over its 2048 entries with the reciprocal root, adds y and multiplies
  by y. So the stored value at (p, q) is the scalar formula `RowNorm.byRsqrt` of row p of z and row p of the y-block.
-/
import proofs.«181332_j3556232921779_2_alg».proof.Proof.Gen.KernelIdeal.Skeleton
import Idealize.ShloMosaic.Lib.ValueLayout
import proofs.«181332_j3556232921779_2_alg».proof.Proof.LibRowNormBlock
import proofs.«181332_j3556232921779_2_alg».proof.Proof.LibRowsByRows

noncomputable section

open scoped BigOperators

namespace Cert.KernelIdeal.Block

open Cert.KernelIdeal Cert.KernelIdeal.Gen Idealize.ShloMosaic Idealize.ShloMosaic.ValueIdx

/-- The shape facts of a [512, 2048] block's row statistics. -/
theorem shapes : RowNormBlock.Shapes 512 2048 :=
  ⟨Gen.reduces_S512x2048_S512, Gen.shapeCasts_S512_S512x1, Gen.broadcasts_S512x1_S512x2048⟩

/-- The linear layer on the block: the x-block times the transposed weights, plus the bias row on every row. -/
def linearBlock (x0 : FVec Ideal S512x512 .f32) (x1 : FVec Ideal S2048x512 .bf16) (x2 : FVec Ideal S1x2048 .f32) :
    FVec Ideal S512x2048 .f32 :=
  addf (matmul dot_S512x512_S2048x512_S512x2048_1_1_0_0_n_n none (truncf .bf16 x0 Gen.bitsLt_bf16_f32)
      (shapeCast S2048x512 x1 Gen.shapeCasts_S2048x512_S2048x512) (constant S512x2048 .f32 0x00000000#32))
    (broadcastTo S512x2048 (shapeCast S1x2048 x2 Gen.shapeCasts_S1x2048_S1x2048) Gen.broadcasts_S1x2048_S512x2048)

/-- The body's stored value is the row standardisation of the linear block against the y-block. -/
theorem payload_eq (x0 : FVec Ideal S512x512 .f32) (x1 : FVec Ideal S2048x512 .bf16) (x2 : FVec Ideal S1x2048 .f32)
    (x3 : FVec Ideal S512x2048 .f32) :
    k0_pay1 (F := Ideal) x0 x1 x2 x3
      = RowNormBlock.normAddMul shapes (.inl rfl) rfl 0x45000000#32 0x3727C5AC#32 (linearBlock x0 x1 x2) x3 := rfl

theorem lhs0 (i : S512x2048.Idx) (k : dot_S512x512_S2048x512_S512x2048_1_1_0_0_n_n.contr.Idx) :
    (dot_S512x512_S2048x512_S512x2048_1_1_0_0_n_n.lhsIdx i k 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

theorem rhs0 (i : S512x2048.Idx) (k : dot_S512x512_S2048x512_S512x2048_1_1_0_0_n_n.contr.Idx) :
    (dot_S512x512_S2048x512_S512x2048_1_1_0_0_n_n.rhsIdx i k 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

/-- The linear block at (p, q): row p of the x-block against row q of the weights, plus the bias at q. -/
theorem linearBlock_apply (x0 : FVec Ideal S512x512 .f32) (x1 : FVec Ideal S2048x512 .bf16) (x2 : FVec Ideal S1x2048 .f32)
    (p : Fin 512) (q : Fin 2048) :
    linearBlock x0 x1 x2 (ix2 p q) = (∑ j : Fin 512, x0 (ix2 p j) * x1 (ix2 q j)) + x2 (ix2 (0 : Fin 1) q) := by
  unfold linearBlock
  show FloatOps.matmul dot_S512x512_S2048x512_S512x2048_1_1_0_0_n_n none (truncf .bf16 x0 Gen.bitsLt_bf16_f32)
      (shapeCast S2048x512 x1 Gen.shapeCasts_S2048x512_S2048x512) (constant S512x2048 .f32 0x00000000#32) (ix2 p q)
    + broadcastTo S512x2048 (shapeCast S1x2048 x2 Gen.shapeCasts_S1x2048_S1x2048) Gen.broadcasts_S1x2048_S512x2048 (ix2 p q) = _
  rw [RowsByRows.matmul_zero_apply dot_S512x512_S2048x512_S512x2048_1_1_0_0_n_n rfl rfl lhs0
      (fun i k => dot_S512x512_S2048x512_S512x2048_1_1_0_0_n_n.lhsIdx_val_of_single rfl i k) rhs0
      (fun i k => dot_S512x512_S2048x512_S512x2048_1_1_0_0_n_n.rhsIdx_val_of_single rfl i k),
    broadcastTo_1b_ab_apply, shapeCast_self, shapeCast_self]
  all_goals rfl

/-- THE STORED VALUE AT (p, q). -/
theorem payload_apply (x0 : FVec Ideal S512x512 .f32) (x1 : FVec Ideal S2048x512 .bf16) (x2 : FVec Ideal S1x2048 .f32)
    (x3 : FVec Ideal S512x2048 .f32) (p : Fin 512) (q : Fin 2048) :
    k0_pay1 (F := Ideal) x0 x1 x2 x3 (ix2 p q)
      = RowNorm.byRsqrt (Ideal.ofBits .f32 0x45000000#32) (Ideal.ofBits .f32 0x3727C5AC#32)
          (fun k => (∑ j : Fin 512, x0 (ix2 p j) * x1 (ix2 k j)) + x2 (ix2 (0 : Fin 1) k)) (fun k => x3 (ix2 p k)) q := by
  rw [payload_eq]
  refine (RowNormBlock.normAddMul_apply shapes (.inl rfl) rfl 0x45000000#32 0x3727C5AC#32 (linearBlock x0 x1 x2) x3 p q).trans ?_
  refine congrArg (fun z => RowNorm.byRsqrt _ _ z _ q) (funext fun k => ?_)
  exact linearBlock_apply x0 x1 x2 p k

end Cert.KernelIdeal.Block

end
-- ==== Proof.Spec.lean ====
/-
  THE RESULT AS ONE FUNCTION OF THE FOUR ARGUMENT ARRAYS.

  With x : [32768, 512], y : [32768, 2048], W : [2048, 512], B : [2048], row r of the linear layer is
      z r k = (∑ j < 512, x (r, j) · W (k, j)) + B k           (k < 2048),
  and the result at (r, q) is that row standardised over its 2048 entries — mean and biased variance over the length
  word 2048.0, offset word 1e-5 rounded to f32 —, plus y (r, q), times y (r, q). `result` spells the standardisation
  with a division by the root; `rsqrt_spelling` says that the spelling with the reciprocal root is the same number,
  because the length word denotes the positive real 2048 and the offset word a positive real (Proof/RowNorm.lean).
-/
import Idealize.ShloMosaic.Lib.ValueIdx
import Idealize.ShloMosaic.PureOps.Ideal.Laws
import proofs.«181332_j3556232921779_2_alg».proof.Proof.RowNorm

noncomputable section

open scoped BigOperators

namespace Cert.Spec

open Idealize.ShloMosaic Idealize.ShloMosaic.ValueIdx

/-- The length word `2048.0` denotes the real 2048. -/
theorem length_word : Ideal.ofBits .f32 0x45000000#32 = ((2048 : ℝ) : EReal) := by
  simp [Ideal.ofBits, Ideal.ieee, -EReal.coe_mul]; norm_num

/-- The offset word (1e-5 rounded to f32) denotes a positive real. -/
theorem offset_word_pos : 0 < Ideal.ofBits .f32 0x3727C5AC#32 := by
  have h : Ideal.ofBits .f32 0x3727C5AC#32 = ((10995116 / 2 ^ 40 : ℝ) : EReal) := by
    simp [Ideal.ofBits, Ideal.ieee, -EReal.coe_mul]; norm_num
  rw [h]
  exact EReal.coe_pos.mpr (by norm_num)

/-- Row `r` of the linear layer. -/
def linearRow (x : (⟨2, ![32768, 512]⟩ : Shape).Idx → EReal) (W : (⟨2, ![2048, 512]⟩ : Shape).Idx → EReal)
    (B : (⟨1, ![2048]⟩ : Shape).Idx → EReal) (r : Fin 32768) (k : Fin 2048) : EReal :=
  (∑ j : Fin 512, x (ix2 r j) * W (ix2 k j)) + B (ix1 k)

/-- The result array. -/
def result (x : (⟨2, ![32768, 512]⟩ : Shape).Idx → EReal) (y : (⟨2, ![32768, 2048]⟩ : Shape).Idx → EReal)
    (W : (⟨2, ![2048, 512]⟩ : Shape).Idx → EReal) (B : (⟨1, ![2048]⟩ : Shape).Idx → EReal) :
    (⟨2, ![32768, 2048]⟩ : Shape).Idx → EReal := fun i =>
  RowNorm.byDivSqrt (Ideal.ofBits .f32 0x45000000#32) (Ideal.ofBits .f32 0x3727C5AC#32) (linearRow x W B (i 0))
    (fun k => y (ix2 (i 0) k)) (i 1)

theorem result_apply (x : (⟨2, ![32768, 512]⟩ : Shape).Idx → EReal) (y : (⟨2, ![32768, 2048]⟩ : Shape).Idx → EReal)
    (W : (⟨2, ![2048, 512]⟩ : Shape).Idx → EReal) (B : (⟨1, ![2048]⟩ : Shape).Idx → EReal) (r : Fin 32768) (q : Fin 2048) :
    result x y W B (ix2 r q)
      = RowNorm.byDivSqrt (Ideal.ofBits .f32 0x45000000#32) (Ideal.ofBits .f32 0x3727C5AC#32) (linearRow x W B r)
          (fun k => y (ix2 r k)) q := rfl

/-- With these two words the reciprocal-root spelling of a row's standardisation is the division spelling. -/
theorem rsqrt_spelling {C : ℕ} (z y : Fin C → EReal) (q : Fin C) :
    RowNorm.byRsqrt (Ideal.ofBits .f32 0x45000000#32) (Ideal.ofBits .f32 0x3727C5AC#32) z y q
      = RowNorm.byDivSqrt (Ideal.ofBits .f32 0x45000000#32) (Ideal.ofBits .f32 0x3727C5AC#32) z y q := by
  rw [length_word]
  exact RowNorm.byRsqrt_eq_byDivSqrt (by norm_num) offset_word_pos z y q

end Cert.Spec

end
-- ==== Proof.KernelValue.lean ====
/-
  THE KERNEL'S RESULT ARRAY AFTER THE RUN IS `Spec.result` OF THE ARGUMENT ARRAYS.

  The grid has 64 points; at point t the x-window and the y-window hold rows 512·t … 512·t + 511 of their arrays, the
  weight window the whole weight array (rounded to bf16 by the host before the launch: the identity on the extended
  reals), the bias window the whole bias (recast by the host as one row), and the output window writes rows
  512·t … 512·t + 511 of the result. So what point t writes back is block t of the one whole-array function
  `Spec.result` (the body's entry-by-entry value, Proof/KernelBlock.lean, with the reciprocal-root spelling turned
  into the division spelling, Proof/Spec.lean), and the 64 blocks cover the array: row r lies in block r / 512.
-/
import proofs.«181332_j3556232921779_2_alg».proof.Proof.Gen.KernelIdeal.Value
import Idealize.ShloMosaic.Lib.StableHlo.Run
import proofs.«181332_j3556232921779_2_alg».proof.Proof.KernelBlock
import proofs.«181332_j3556232921779_2_alg».proof.Proof.Spec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 grid points: the x-, y- and output windows sit at block row t, column 0; the
    weight and bias windows at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of block t is row 512·t + p of the array. -/
theorem row_lt (t : Fin cfg0.N) (p : Fin 512) : t.val * 512 + p.val < 32768 := by
  have ht : t.val < 64 := t.isLt
  have hp := p.isLt
  omega

/-- The weight window's array as the region finds it: the weights, rounded by the host (the identity here). -/
theorem weights_at_entry (c : Dev nD) :
    (V m c main_v0 : S2048x512.Idx → EReal) = m ((c : Thread nD τ).loc main_arg2) := by
  dsimp only [Gen.V, Gen.hostOps0]; after_results; rfl

/-- The bias window's array as the region finds it: the bias recast as one row. -/
theorem bias_at_entry (c : Dev nD) :
    (V m c main_v1 : S1x2048.Idx → EReal)
      = shapeCast S1x2048 (m ((c : Thread nD τ).loc main_arg3) : S2048.Idx → EReal) Gen.shapeCasts_S2048_S1x2048 := by
  dsimp only [Gen.V, Gen.hostOps0]; after_results; rfl

/-- The x-window's block at point t, entry (p, j): the array at row 512·t + p. -/
theorem x_block (c : Dev nD) (t : Fin cfg0.N) (p : Fin 512) (j : Fin 512) :
    iblk m c 0 t (ix2 p j) = m ((c : Thread nD τ).loc main_arg0) (ix2 ⟨t.val * 512 + p.val, row_lt t p⟩ j) := by
  show V m c main_arg0 (((cfg0.win 0).blk t).view.emb (ix2 p j)) = _
  rw [V_main_arg0]
  obtain ⟨e0, e1, -⟩ := index_facts t
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 512 + 1 * j.val = j.val; omega

/-- The weight window's block at any point, entry (k, j): the weight array there. -/
theorem w_block (c : Dev nD) (t : Fin cfg0.N) (k : Fin 2048) (j : Fin 512) :
    iblk m c 1 t (ix2 k j) = m ((c : Thread nD τ).loc main_arg2) (ix2 k j) := by
  show V m c main_v0 (((cfg0.win 1).blk t).view.emb (ix2 k j)) = _
  rw [weights_at_entry]
  obtain ⟨-, -, e0, e1, -⟩ := index_facts t
  refine congrArg _ (funext fun a => Fin.ext ?_)
  match a with
  | ⟨0, _⟩ => show win0_1.index t (0 : Fin 2) * 2048 + 1 * k.val = k.val; omega
  | ⟨1, _⟩ => show win0_1.index t (1 : Fin 2) * 512 + 1 * j.val = j.val; omega

/-- The bias window's block at any point, entry (0, k): the bias at k. -/
theorem b_block (c : Dev nD) (t : Fin cfg0.N) (k : Fin 2048) :
    iblk m c 2 t (ix2 (0 : Fin 1) k) = m ((c : Thread nD τ).loc main_arg3) (ix1 k) := by
  show V m c main_v1 (((cfg0.win 2).blk t).view.emb (ix2 (0 : Fin 1) k)) = _
  rw [bias_at_entry]
  obtain ⟨-, -, -, -, e0, e1, -⟩ := index_facts t
  have he : ((cfg0.win 2).blk t).view.emb (ix2 (0 : Fin 1) k) = ix2 (0 : Fin 1) k := by
    refine funext fun a => Fin.ext ?_
    match a with
    | ⟨0, _⟩ => show win0_2.index t (0 : Fin 2) * 1 + 1 * 0 = 0; omega
    | ⟨1, _⟩ => show win0_2.index t (1 : Fin 2) * 2048 + 1 * k.val = k.val; omega
  rw [he]
  exact shapeCast_a_1a_apply _ _ (0 : Fin 1) k

/-- The y-window's block at point t, entry (p, q): the array at row 512·t + p. -/
theorem y_block (c : Dev nD) (t : Fin cfg0.N) (p : Fin 512) (q : Fin 2048) :
    iblk m c 3 t (ix2 p q) = m ((c : Thread nD τ).loc main_arg1) (ix2 ⟨t.val * 512 + p.val, row_lt t p⟩ q) := by
  show V m c main_arg1 (((cfg0.win 3).blk t).view.emb (ix2 p q)) = _
  rw [V_main_arg1]
  obtain ⟨-, -, -, -, -, -, e0, e1, -⟩ := index_facts t
  refine congrArg _ (funext fun a => Fin.ext ?_)
  match a with
  | ⟨0, _⟩ => show win0_3.index t (0 : Fin 2) * 512 + 1 * p.val = t.val * 512 + p.val; omega
  | ⟨1, _⟩ => show win0_3.index t (1 : Fin 2) * 2048 + 1 * q.val = q.val; omega

/-- Entry (p, q) of the output block at point t is entry (512·t + p, q) of the result array. -/
theorem out_block (t : Fin cfg0.N) (p : Fin 512) (q : Fin 2048) :
    ((cfg0.win 4).blk t).view.emb (ix2 p q) = ix2 ⟨t.val * 512 + p.val, row_lt t p⟩ q := by
  obtain ⟨-, -, -, -, -, -, -, -, e0, e1⟩ := index_facts t
  refine funext fun a => Fin.ext ?_
  match a with
  | ⟨0, _⟩ => show win0_4.index t (0 : Fin 2) * 512 + 1 * p.val = t.val * 512 + p.val; omega
  | ⟨1, _⟩ => show win0_4.index t (1 : Fin 2) * 2048 + 1 * q.val = q.val; omega

/-- WHAT POINT `t` WRITES BACK is block `t` of `Spec.result` of the argument arrays. -/
theorem flushed_eq (c : Dev nD) (t : Fin cfg0.N) :
    (dats m 0 c).flushed 4 t = ((cfg0.win 4).blk t).view.read (Elt Ideal)
      (Spec.result (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold out0_4
  rw [View.canon_unit_zero zero_offsets]
  simp only [View.ld_unit_zero (S := S512x512) zero_offsets, View.ld_unit_zero (S := S2048x512) zero_offsets,
    View.ld_unit_zero (S := S1x2048) zero_offsets, View.ld_unit_zero (S := S512x2048) zero_offsets]
  funext j
  obtain ⟨p, q, rfl⟩ : ∃ (p : Fin 512) (q : Fin 2048), j = ix2 p q := ⟨j 0, j 1, eq_ix2 j⟩
  show k0_pay1 (iblk m c 0 t) (iblk m c 1 t) (iblk m c 2 t) (iblk m c 3 t) (ix2 p q)
    = Spec.result _ _ _ _ (((cfg0.win 4).blk t).view.emb (ix2 p q))
  rw [out_block, Spec.result_apply]
  refine (Block.payload_apply (iblk m c 0 t) (iblk m c 1 t) (iblk m c 2 t) (iblk m c 3 t) p q).trans ?_
  refine (Spec.rsqrt_spelling _ _ q).trans ?_
  refine congrArg₂ (fun z y => RowNorm.byDivSqrt _ _ z y q) (funext fun k => ?_) (funext fun k => ?_)
  · unfold Spec.linearRow
    refine congrArg₂ (· + ·) (Finset.sum_congr rfl fun j _ => ?_) (b_block m c t k)
    rw [x_block, w_block]
  · exact y_block m c t p k

/-- An index of the result array is in point `t`'s block iff each coordinate is in the block's range on its axis. -/
theorem mem_block (t : Fin cfg0.N) (i : S32768x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v2).slice (win0_4.rect t)).set ↔ _
  rw [View.set_slice_whole, Rect.mem_set_unit]
  exact Iff.rfl

/-- Every index of the result array is in some point's block: row r is in block r / 512. -/
theorem cover (i : S32768x2048.Idx) :
    ∃ t : Fin cfg0.N, (cfg0.win 4).flush t = true ∧ i ∈ ((cfg0.win 4).blk t).view.set := by
  have hi0 : (i 0).val < 32768 := (i 0).isLt
  have hi1 : (i 1).val < 2048 := (i 1).isLt
  obtain ⟨t, ht⟩ : ∃ t : Fin cfg0.N, t.val = (i 0).val / 512 :=
    ⟨⟨(i 0).val / 512, by show (i 0).val / 512 < 64; omega⟩, rfl⟩
  obtain ⟨-, -, -, -, -, -, -, -, e0, e1⟩ := index_facts t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- THE RESULT ARRAY after the run. -/
theorem final (c : Dev nD) :
    (dats m 0 c).arrAt 4 cfg0.N
      = Spec.result (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- The kernel's run: every weakly fair execution terminates with the result array at `Spec.result` of the
    arguments, and the arguments unchanged. -/
theorem run : θ_run defs (onTc (τ := τ) (main (F := Ideal))) ⟨m, fun _ => 0, ρ⟩ fun r => ∀ c : Dev nD,
      r.2.mem ((c : Thread nD τ).loc main_v2)
        = Spec.result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  THE REFERENCE'S RESULT IS `Spec.result` OF ITS ARGUMENTS.

  The reference computes the linear layer for all 32768 rows at once (a product contracting the second axis of both
  operands, plus the bias broadcast over the rows), the row means and variances as host sums over the 2048 columns
  kept as [32768, 1] columns and divided by the constant 2048, and then (z − mean) / sqrt (var + ε), plus y, times y.
  Read at an index (r, q), one operation at a time, each stage is the scalar formula of row r (Proof/RowNorm.lean);
  the host sums start from the zero word, which is the real 0.
-/
import proofs.«181332_j3556232921779_2_alg».proof.Proof.Gen.ReferenceIdeal.Read
import proofs.«181332_j3556232921779_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S32768x512, .f32⟩ : BufTy).Contents (Elt Ideal)) (x1 : (⟨S32768x2048, .f32⟩ : BufTy).Contents (Elt Ideal))
  (x2 : (⟨S2048x512, .f32⟩ : BufTy).Contents (Elt Ideal)) (x3 : (⟨S2048, .f32⟩ : BufTy).Contents (Elt Ideal))

/-- The linear layer at (r, k). -/
theorem linear_apply (r : Fin 32768) (k : Fin 2048) :
    val_main_v3 (F := Ideal) x0 x2 x3 (ix2 r k) = Spec.linearRow x0 x2 x3 r k := by
  rw [val_main_v3_apply, val_main_v0_apply, val_main_v2_apply, val_main_v1_apply]
  have el : ∀ j : Fin 512, lidx_main_v0 (ix2 r k) j = ix2 r j := fun j =>
    funext fun a => Fin.ext (by match a with | ⟨0, _⟩ => rfl | ⟨1, _⟩ => rfl)
  have er : ∀ j : Fin 512, ridx_main_v0 (ix2 r k) j = ix2 k j := fun j =>
    funext fun a => Fin.ext (by match a with | ⟨0, _⟩ => rfl | ⟨1, _⟩ => rfl)
  have eb : idx_main_v1 (idx_main_v2 (ix2 r k)) = ix1 k :=
    funext fun a => Fin.ext (by match a with | ⟨0, _⟩ => rfl)
  simp only [el, er, eb]
  rfl

/-- The mean column at (r, ·): the mean of row r of the linear layer. -/
theorem mean_apply (r : Fin 32768) (u : Fin 1) :
    val_main_v7 (F := Ideal) x0 x2 x3 (ix2 r u)
      = RowNorm.mean (Ideal.ofBits .f32 0x45000000#32) (Spec.linearRow x0 x2 x3 r) := by
  rw [val_main_v7_apply, val_main_v5_apply, val_main_v4_apply, val_main_v6_apply]
  have ei : ∀ k : Fin 2048, idx_main_v4 (idx_main_v5 (ix2 r u)) k = ix2 r k := fun k =>
    funext fun a => Fin.ext (by match a with | ⟨0, _⟩ => rfl | ⟨1, _⟩ => rfl)
  simp only [ei, linear_apply]
  show Ideal.div (Ideal.ofBits .f32 0x00000000#32 + ∑ k : Fin 2048, Spec.linearRow x0 x2 x3 r k)
    (Ideal.ofBits .f32 0x45000000#32) = _
  rw [Ideal.ofBits_zero_f32, zero_add]
  rfl

/-- The centred linear layer at (r, k) (the reference forms it twice, from the same operands). -/
theorem centred_apply (r : Fin 32768) (k : Fin 2048) :
    val_main_v9 (F := Ideal) x0 x2 x3 (ix2 r k)
      = RowNorm.centred (Ideal.ofBits .f32 0x45000000#32) (Spec.linearRow x0 x2 x3 r) k := by
  rw [val_main_v9_apply, val_main_v8_apply, linear_apply]
  have ei : idx_main_v8 (ix2 r k) = ix2 r (0 : Fin 1) :=
    funext fun a => Fin.ext (by match a with | ⟨0, _⟩ => rfl | ⟨1, _⟩ => rfl)
  rw [ei, mean_apply]
  rfl

theorem centred_apply' (r : Fin 32768) (k : Fin 2048) :
    val_main_v16 (F := Ideal) x0 x2 x3 (ix2 r k)
      = RowNorm.centred (Ideal.ofBits .f32 0x45000000#32) (Spec.linearRow x0 x2 x3 r) k := by
  rw [val_main_v16_apply, val_main_v15_apply, linear_apply]
  have ei : idx_main_v15 (ix2 r k) = ix2 r (0 : Fin 1) :=
    funext fun a => Fin.ext (by match a with | ⟨0, _⟩ => rfl | ⟨1, _⟩ => rfl)
  rw [ei, mean_apply]
  rfl

/-- The variance column at (r, ·): the biased variance of row r of the linear layer. -/
theorem variance_apply (r : Fin 32768) (u : Fin 1) :
    val_main_v14 (F := Ideal) x0 x2 x3 (ix2 r u)
      = RowNorm.variance (Ideal.ofBits .f32 0x45000000#32) (Spec.linearRow x0 x2 x3 r) := by
  rw [val_main_v14_apply, val_main_v12_apply, val_main_v11_apply, val_main_v13_apply]
  have ei : ∀ k : Fin 2048, idx_main_v11 (idx_main_v12 (ix2 r u)) k = ix2 r k := fun k =>
    funext fun a => Fin.ext (by match a with | ⟨0, _⟩ => rfl | ⟨1, _⟩ => rfl)
  simp only [ei, val_main_v10_apply, centred_apply]
  show Ideal.div (Ideal.ofBits .f32 0x00000000#32 + ∑ k : Fin 2048,
      RowNorm.centred (Ideal.ofBits .f32 0x45000000#32) (Spec.linearRow x0 x2 x3 r) k
        * RowNorm.centred (Ideal.ofBits .f32 0x45000000#32) (Spec.linearRow x0 x2 x3 r) k)
    (Ideal.ofBits .f32 0x45000000#32) = _
  rw [Ideal.ofBits_zero_f32, zero_add]
  rfl

/-- THE REFERENCE'S RESULT, as one function of its arguments. -/
theorem result_eq : val_main_v23 (F := Ideal) x0 x1 x2 x3 = Spec.result x0 x1 x2 x3 := by
  funext i
  obtain ⟨r, q, rfl⟩ : ∃ (r : Fin 32768) (q : Fin 2048), i = ix2 r q := ⟨i 0, i 1, eq_ix2 i⟩
  rw [Spec.result_apply, val_main_v23_apply, val_main_v22_apply, val_main_v21_apply, val_main_v20_apply,
    val_main_v19_apply, val_main_v18_apply, val_main_v17_apply, centred_apply']
  have ei : idx_main_v20 (ix2 r q) = ix2 r (0 : Fin 1) :=
    funext fun a => Fin.ext (by match a with | ⟨0, _⟩ => rfl | ⟨1, _⟩ => rfl)
  rw [ei, variance_apply]
  rfl

end Cert.ReferenceIdeal.RefValue

end
-- ==== Proof.lean ====
/-
  A linear layer followed by a row-wise standardisation, an addition and a multiplication:
      z = x · Wᵀ + B,   d = z − mean_row z,   out = (d · (var_row z + ε)^(-1/2) + y) · y
  with the mean and the biased variance taken over the 2048 entries of each row.

  The kernel computes it 512 rows at a time, with the reciprocal square root; the reference for all 32768 rows at
  once, dividing by the square root. On the extended reals both are the one function `Spec.result` of the four
  argument arrays (Proof/Spec.lean):
    • the kernel's result array after its run is `Spec.result` (Proof/KernelValue.lean, over the entry-by-entry value
      of one block, Proof/KernelBlock.lean and Proof/LibRowNormBlock.lean);
    • the reference's result is `Spec.result` (Proof/RefValue.lean);
    • the two spellings of the standardisation agree because a sum of squares over a positive length is never
      negative, so var + ε is positive, and there multiplying by the reciprocal root is dividing by the root
      (Proof/RowNorm.lean). No finiteness of the inputs is needed for that.
  The three frames are the generated frame runs (the reference's: its generated run with the result dropped); the
  idealization rewrote nothing, so it is preserved trivially.
-/
import proofs.«181332_j3556232921779_2_alg».proof.Defs
import proofs.«181332_j3556232921779_2_alg».proof.Proof.Gen.Kernel
import proofs.«181332_j3556232921779_2_alg».proof.Proof.Gen.Kernel.Skeleton
import proofs.«181332_j3556232921779_2_alg».proof.Proof.Gen.Kernel.Launch
import proofs.«181332_j3556232921779_2_alg».proof.Proof.Gen.Kernel.Points
import proofs.«181332_j3556232921779_2_alg».proof.Proof.Gen.Kernel.Frame
import proofs.«181332_j3556232921779_2_alg».proof.Proof.Gen.KernelIdeal
import proofs.«181332_j3556232921779_2_alg».proof.Proof.Gen.KernelIdeal.Skeleton
import proofs.«181332_j3556232921779_2_alg».proof.Proof.Gen.KernelIdeal.Launch
import proofs.«181332_j3556232921779_2_alg».proof.Proof.Gen.KernelIdeal.Points
import proofs.«181332_j3556232921779_2_alg».proof.Proof.Gen.KernelIdeal.Frame
import proofs.«181332_j3556232921779_2_alg».proof.Proof.Gen.ReferenceIdeal
import proofs.«181332_j3556232921779_2_alg».proof.Proof.Gen.Pre_finite_inputs
import proofs.«181332_j3556232921779_2_alg».proof.Proof.Gen.KernelIdeal.Value
import proofs.«181332_j3556232921779_2_alg».proof.Proof.Gen.ReferenceIdeal.Run
import proofs.«181332_j3556232921779_2_alg».proof.Proof.Gen.ReferenceIdeal.Read
import proofs.«181332_j3556232921779_2_alg».proof.Proof.KernelValue
import proofs.«181332_j3556232921779_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result array at `Spec.result` of the
    arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
